-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x1 : Shape := ⟨2, ![8192, 1]⟩
abbrev S512x4096 : Shape := ⟨2, ![512, 4096]⟩
abbrev S512x1 : Shape := ⟨2, ![512, 1]⟩
abbrev S512x1024 : Shape := ⟨2, ![512, 1024]⟩
abbrev S512 : Shape := ⟨1, ![512]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v9 : BitVec 32 := Scalar.muli arg4 c1024_i32
  v9
def k0_off1 (k0_t1 : Fin k0_t1_loop.trips) : Fin 2 → Nat :=
  let c0_8 : Index := 0#32
  let c0_i32 : BitVec 32 := 0#32
  let c1_i32 : BitVec 32 := 1#32
  let arg4 : BitVec 32 := Scf.iv c0_i32 c1_i32 k0_t1
  let c1024_i32 : BitVec 32 := 1024#32
  let v9 : BitVec 32 := Scalar.muli arg4 c1024_i32
  let v10 : BitVec 32 := v9
  let v11 : Index := Scalar.indexCast v10
  ![0, v11.toNat]
@[reducible] def k0_t2_loop : Scf.Loop 32 :=
  let c0_i32_2 : BitVec 32 := 0#32
  let c4_i32_3 : BitVec 32 := 4#32
  let v4 : BitVec 32 := Scalar.addi c0_i32_2 c4_i32_3
  let c1_i32_4 : BitVec 32 := 1#32
  ⟨c0_i32_2, v4, c1_i32_4⟩
def k0_mult2 (k0_t2 : Fin k0_t2_loop.trips) : BitVec 32 :=
  let c0_i32_2 : BitVec 32 := 0#32
  let c1_i32_4 : BitVec 32 := 1#32
  let arg4 : BitVec 32 := Scf.iv c0_i32_2 c1_i32_4 k0_t2
  let c1024_i32 : BitVec 32 := 1024#32
  let v9 : BitVec 32 := Scalar.muli arg4 c1024_i32
  v9
def k0_off2 (k0_t2 : Fin k0_t2_loop.trips) : Fin 2 → Nat :=
  let c0_8 : Index := 0#32
  let c0_i32_2 : BitVec 32 := 0#32
  let c1_i32_4 : BitVec 32 := 1#32
  let arg4 : BitVec 32 := Scf.iv c0_i32_2 c1_i32_4 k0_t2
  let c1024_i32 : BitVec 32 := 1024#32
  let v9 : BitVec 32 := Scalar.muli arg4 c1024_i32
  let v10 : BitVec 32 := v9
  let v11 : Index := Scalar.indexCast v10
  ![0, v11.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S512x1024 : 0 < S512x1024.numel
  reduces_S512x1024_S512 : S512x1024.Reduces [1] S512
  shapeCasts_S512_S512x1 : S512.ShapeCasts S512x1
  broadcasts_S512x1_S512x1024 : S512x1.Broadcasts S512x1024
  inb_S512x1_S512x1_0_0 : ∀ a, (![0, 0] : Fin 2 → Nat) a + S512x1.size a ≤ S512x1.size a
  h_S512x1 : 0 < S512x1.numel
  reducesTo_S8192x1_S_d0_1 : S8192x1.ReducesTo [0, 1] S_
  h_S_ : 0 < S_.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S512x1024.size a ≤ S512x4096.size a
  k0_t2_ok : k0_t2_loop.OK
  k0_mult2_dvd : ∀ k0_t2 : Fin k0_t2_loop.trips, 1024 ∣ (k0_mult2 k0_t2).toNat
  k0_off2_inb : ∀ k0_t2 : Fin k0_t2_loop.trips, ∀ a, (k0_off2 k0_t2) a + S512x1024.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .i32 = 32 ∨ (Rect.block (s := S8192x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S_, .i32⟩
  | .hbm, ⟨3, _⟩ => ⟨S8192x4096, .i32⟩
  | .hbm, ⟨4, _⟩ => ⟨S8192x4096, .i1⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.KernelTrips.lean ====
/-
  What one grid point of the kernel leaves in its output block, as a pure term of the two staged input blocks.

  The body makes two passes over the four column chunks of its 512 × 4096 blocks, each pass carrying a 512 × 1
  column from chunk to chunk, and stores the second pass's column scaled by a constant. Here each trip of either
  pass is read as its arithmetic applied to the carried column and to the chunk of the staged blocks the trip
  loads; the carried columns become two plain recursions over the trip count (`minCol`, `sumCol`), and the block
  the body stores is the scaling of the second pass's last column (`blockOut`). All of it holds at any float values.
-/
import proofs.«152923_j24266565222505_2_alg».proof.Proof.Gen.KernelIdeal.Frame
import Idealize.ShloMosaic.Lib.WholeRead
import Idealize.ShloMosaic.Lib.Pipeline.Value

noncomputable section

namespace Cert.KernelIdeal.Body

open Idealize.ShloMosaic Idealize.ShloMosaic.TcCoe Idealize.SL.Sem
open Cert.KernelIdeal Cert.KernelIdeal.Gen

variable {F : FTy → Type} [FloatOps F]

/-- Column chunk `k` of a staged 512 × 4096 block: the 512 × 1024 entries a trip's load reads through its rectangle. -/
def chunk1 {e : EltTy} (X : S512x4096.Idx → Elt F e) (k : Fin k0_t1_loop.trips) : S512x1024.Idx → Elt F e :=
  fun j => X ((Rect.unit (s := S512x4096) (k0_off1 k) S512x1024.size (k0_off1_inb k)).toLoadRect.idx j)

/-- The same for the second pass, whose rectangle is spelt by its own offsets. -/
def chunk2 {e : EltTy} (X : S512x4096.Idx → Elt F e) (k : Fin k0_t2_loop.trips) : S512x1024.Idx → Elt F e :=
  fun j => X ((Rect.unit (s := S512x4096) (k0_off2 k) S512x1024.size (k0_off2_inb k)).toLoadRect.idx j)

/-- A trip of the first pass: its arithmetic on the carried column and the trip's chunks of the two blocks. -/
theorem trip1_eq (𝒱 : Variants) (c : Dev nD) (bd : Option 𝒱.V) (i : grid0.Coords)
    (arg1 : Memref sig .tc .vmem S512x4096 .f32) (harg1 : arg1.IsWhole) (arg2 : Memref sig .tc .vmem S512x4096 .i32) (harg2 : arg2.IsWhole)
    (arg3 : Memref sig .tc .vmem S512x1 .f32) (harg3 : arg3.IsWhole)
    (X0 : Vec F S512x4096 .f32) (X1 : Vec F S512x4096 .i32) (k : Fin k0_t1_loop.trips) (acc : FVec F S512x1 .f32) :
    tripR_k0_t1 (F := F) 𝒱 c bd i arg1 harg1 arg2 harg2 arg3 harg3 (harg1.unread X0) (harg2.unread X1) k acc
      = k0_pay2 acc (chunk1 X0 k) (chunk1 X1 k) := by
  unfold tripR_k0_t1 trip_k0_t1
  dsimp only
  exact congrArg₂ (k0_pay2 acc) (funext fun j => harg1.readAt_unread X0 _ j) (funext fun j => harg2.readAt_unread X1 _ j)

/-- A trip of the second pass likewise; `v2` is the column the first pass ended with. -/
theorem trip2_eq (𝒱 : Variants) (c : Dev nD) (bd : Option 𝒱.V) (i : grid0.Coords)
    (arg1 : Memref sig .tc .vmem S512x4096 .f32) (harg1 : arg1.IsWhole) (arg2 : Memref sig .tc .vmem S512x4096 .i32) (harg2 : arg2.IsWhole)
    (arg3 : Memref sig .tc .vmem S512x1 .f32) (harg3 : arg3.IsWhole) (v2 : FVec F S512x1 .f32)
    (X0 : Vec F S512x4096 .f32) (X1 : Vec F S512x4096 .i32) (k : Fin k0_t2_loop.trips) (acc : FVec F S512x1 .f32) :
    tripR_k0_t2 (F := F) 𝒱 c bd i arg1 harg1 arg2 harg2 arg3 harg3 v2 (harg1.unread X0) (harg2.unread X1) k acc
      = k0_pay4 v2 acc (chunk2 X0 k) (chunk2 X1 k) := by
  unfold tripR_k0_t2 trip_k0_t2
  dsimp only
  exact congrArg₂ (k0_pay4 v2 acc) (funext fun j => harg1.readAt_unread X0 _ j) (funext fun j => harg2.readAt_unread X1 _ j)

/-- The first pass's carried column after `n` trips, from the staged blocks alone. -/
def minCol (X0 : Vec F S512x4096 .f32) (X1 : Vec F S512x4096 .i32) : ℕ → FVec F S512x1 .f32
  | 0 => k0_pay1
  | n + 1 => if h : n < k0_t1_loop.trips then k0_pay2 (minCol X0 X1 n) (chunk1 X0 ⟨n, h⟩) (chunk1 X1 ⟨n, h⟩) else minCol X0 X1 n

/-- The second pass's carried column after `n` trips. -/
def sumCol (v2 : FVec F S512x1 .f32) (X0 : Vec F S512x4096 .f32) (X1 : Vec F S512x4096 .i32) : ℕ → FVec F S512x1 .f32
  | 0 => k0_pay3
  | n + 1 => if h : n < k0_t2_loop.trips then k0_pay4 v2 (sumCol v2 X0 X1 n) (chunk2 X0 ⟨n, h⟩) (chunk2 X1 ⟨n, h⟩) else sumCol v2 X0 X1 n

/-- The run's carried column of the first pass is that recursion. -/
theorem st1_eq (𝒱 : Variants) (c : Dev nD) (bd : Option 𝒱.V) (i : grid0.Coords)
    (arg1 : Memref sig .tc .vmem S512x4096 .f32) (harg1 : arg1.IsWhole) (arg2 : Memref sig .tc .vmem S512x4096 .i32) (harg2 : arg2.IsWhole)
    (arg3 : Memref sig .tc .vmem S512x1 .f32) (harg3 : arg3.IsWhole)
    (X0 : Vec F S512x4096 .f32) (X1 : Vec F S512x4096 .i32) (n : ℕ) :
    st_k0_t1 (F := F) 𝒱 c bd i arg1 harg1 arg2 harg2 arg3 harg3 (harg1.unread X0) (harg2.unread X1) k0_pay1 n = minCol X0 X1 n := by
  induction n with
  | zero => rfl
  | succ n ih =>
    rw [st_k0_t1.eq_2, minCol]
    unfold st_k0_t1Step
    rw [ih]
    by_cases h : n < k0_t1_loop.trips
    · rw [dif_pos h, dif_pos h, trip1_eq]
    · rw [dif_neg h, dif_neg h]

/-- The run's carried column of the second pass likewise. -/
theorem st2_eq (𝒱 : Variants) (c : Dev nD) (bd : Option 𝒱.V) (i : grid0.Coords)
    (arg1 : Memref sig .tc .vmem S512x4096 .f32) (harg1 : arg1.IsWhole) (arg2 : Memref sig .tc .vmem S512x4096 .i32) (harg2 : arg2.IsWhole)
    (arg3 : Memref sig .tc .vmem S512x1 .f32) (harg3 : arg3.IsWhole) (v2 : FVec F S512x1 .f32)
    (X0 : Vec F S512x4096 .f32) (X1 : Vec F S512x4096 .i32) (n : ℕ) :
    st_k0_t2 (F := F) 𝒱 c bd i arg1 harg1 arg2 harg2 arg3 harg3 v2 (harg1.unread X0) (harg2.unread X1) k0_pay3 n = sumCol v2 X0 X1 n := by
  induction n with
  | zero => rfl
  | succ n ih =>
    rw [st_k0_t2.eq_2, sumCol]
    unfold st_k0_t2Step
    rw [ih]
    by_cases h : n < k0_t2_loop.trips
    · rw [dif_pos h, dif_pos h, trip2_eq]
    · rw [dif_neg h, dif_neg h]

/-- The block one grid point stores: the second pass's last column, scaled. -/
def blockOut (X0 : Vec F S512x4096 .f32) (X1 : Vec F S512x4096 .i32) : Vec F S512x1 .f32 :=
  k0_pay5 (sumCol (minCol X0 X1 k0_t1_loop.trips) X0 X1 k0_t2_loop.trips)

/-- What the generated run leaves in the output's staging buffer is that block: its one store covers the buffer. -/
theorem out_eq (c : Dev nD) (i : grid0.Coords)
    (arg1 : Memref sig .tc .vmem S512x4096 .f32) (harg1 : arg1.IsWhole) (arg2 : Memref sig .tc .vmem S512x4096 .i32) (harg2 : arg2.IsWhole)
    (arg3 : Memref sig .tc .vmem S512x1 .f32) (harg3 : arg3.IsWhole)
    (X0 : Vec F S512x4096 .f32) (X1 : Vec F S512x4096 .i32) :
    out0_A_2 (F := F) c i arg1 harg1 arg2 harg2 arg3 harg3 X0 X1 = blockOut X0 X1 := by
  unfold out0_A_2
  rw [View.read_writes_eq_canon _ _ _ (cover0_A_2 c i arg1 harg1 arg2 harg2 arg3 harg3 X0 X1)]
  unfold kernelRun0_A
  dsimp only
  rw [View.canon_unit_zero (funext fun a => by fin_cases a <;> rfl)]
  unfold blockOut
  rw [st1_eq, st2_eq]

end Cert.KernelIdeal.Body

end
-- ==== Proof.Spec.lean ====
/-
  The mathematics both programs compute, on the extended reals.

  For a row of scores `x` and a row of relevance bits `c`: the row's threshold `rowMin` is the smallest score among
  the relevant entries (an irrelevant entry counts as +∞, and so does an empty row); an irrelevant entry is charged
  `max (x k − rowMin) 0`, a relevant one nothing; the row's loss is the total charge. The kernel then scales the loss
  by the float 2⁻¹² where the reference divides it by the float 4096: on the extended reals these agree for every
  value of the loss, finite or not (`scale_eq_div`). The two words +∞ and 0 are kept as the programs spell them.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word both programs mask with and start their minimum from (the float +∞). -/
abbrev INF : EReal := Ideal.ofBits .f32 0x7F800000#32
/-- The word both programs charge a relevant entry and start their sums from (the float +0). -/
abbrev ZERO : EReal := Ideal.ofBits .f32 0x00000000#32

variable {P : ℕ}

/-- A row's entry as the minimum sees it: the score where the entry is relevant, +∞ elsewhere. -/
def masked (x : Fin P → EReal) (c : Fin P → BitVec 1) (k : Fin P) : EReal := Scalar.select (c k) (x k) INF

/-- The smallest relevant score of a row. -/
def rowMin (x : Fin P → EReal) (c : Fin P → BitVec 1) : EReal :=
  Finset.fold min INF (masked x c) Finset.univ

/-- What entry `k` is charged against the threshold `t`. -/
def charge (t : EReal) (x : Fin P → EReal) (c : Fin P → BitVec 1) (k : Fin P) : EReal :=
  Scalar.select (c k) ZERO (max (x k - t) ZERO)

/-- A row's loss: the total charge against the row's own threshold. -/
def rowLoss (x : Fin P → EReal) (c : Fin P → BitVec 1) : EReal := ZERO + ∑ k, charge (rowMin x c) x c k

/-- Row `p` of a matrix of scores. -/
def rowOf {Q : ℕ} (x : (⟨2, ![Q, P]⟩ : Shape).Idx → EReal) (p : Fin Q) : Fin P → EReal := fun k => x (ix2 p k)

/-- Row `p` of the relevance bits of a matrix of labels: each label compared with one. -/
def bitsOf {Q : ℕ} (y : (⟨2, ![Q, P]⟩ : Shape).Idx → BitVec 32) (p : Fin Q) : Fin P → BitVec 1 :=
  fun k => IntOp.cmpi .eq (y (ix2 p k)) 1#32

/-- The loss of row `p` of a matrix of scores and a matrix of labels. -/
def lossOf {Q : ℕ} (x : (⟨2, ![Q, P]⟩ : Shape).Idx → EReal) (y : (⟨2, ![Q, P]⟩ : Shape).Idx → BitVec 32) (p : Fin Q) : EReal :=
  rowLoss (rowOf x p) (bitsOf y p)

/-- The float 2⁻¹² is the real 1/4096. -/
theorem ofBits_inv4096 : Ideal.ofBits .f32 0x39800000#32 = ((1 / 4096 : ℝ) : EReal) := by
  simp [Ideal.ofBits, Ideal.ieee, -EReal.coe_mul]; norm_num

/-- The float 4096 is the real 4096. -/
theorem ofBits_4096 : Ideal.ofBits .f32 0x45800000#32 = ((4096 : ℝ) : EReal) := by
  simp [Ideal.ofBits, Ideal.ieee, -EReal.coe_mul]; norm_num

/-- Scaling by the float 2⁻¹² is dividing by the float 4096, at every extended real. -/
theorem scale_eq_div (v : EReal) :
    v * Ideal.ofBits .f32 0x39800000#32 = Ideal.div v (Ideal.ofBits .f32 0x45800000#32) := by
  rw [ofBits_inv4096, ofBits_4096, Ideal.div_coe (by norm_num : (4096 : ℝ) ≠ 0)]

end Cert.Spec

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibRowMin.lean ====
/-
  A row-wise minimum of an [a, b] matrix read at a row, at exact arithmetic.

  A kernel takes it as a lane reduction with a minimum body from an accumulator word; the host as a reduce over the
  second axis with a minimum body from a scalar initial value. Read at row `p` both are the fold of `min`, from the
  value of the starting word, over the row's entries `src (p, k)` — so a lower bound of either is exactly a lower
  bound of the starting value and of every entry of the row (`Finset.le_fold_min`).
-/
import Idealize.ShloMosaic.Lib.ValueIdx
import Idealize.ShloMosaic.Lib.Pipeline.Value
import Idealize.ShloMosaic.PureOps.Ideal.Laws

noncomputable section

namespace Cert.Lib.RowMin

open Idealize.ShloMosaic Idealize.ShloMosaic.TcCoe Idealize.SL.Sem Idealize.ShloMosaic.ValueIdx

/-- The reduced index `p` with column `k` put back is (p, k). -/
theorem lift_ix2 {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A kernel's lane minimum of an `[a, b]` block over its second axis, read at row `p`. -/
theorem multiReduction_min_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ) (p : Fin a) :
    multiReduction (F := Ideal) .minimumf [1] ⟨1, ![a]⟩ src acc h hφ hacc (ix1 p)
      = Finset.fold min (Ideal.ofBits .f32 acc) (fun k : Fin b => src (ix2 p k)) Finset.univ := by
  rw [multiReduction_minimumf_eq_fold]
  refine (h.fold_filter_drop_single _ _ src (ix1 p)).trans ?_
  have hf : (src ∘ h.lift (ix1 p)) = fun k : Fin b => src (ix2 p k) := funext fun k => congrArg src (lift_ix2 h p k)
  exact congrArg (fun f => Finset.fold min (Ideal.ofBits .f32 acc) f (Finset.univ : Finset (Fin b))) hf

/-- The host's reduce with a minimum body over the second axis, from a scalar constant, read at row `p`. -/
theorem hostReduce_min_lanes {a b : ℕ} (x : FVec Ideal ⟨2, ![a, b]⟩ .f32) (w : BitVec 32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.minimumf x (constant (F := Ideal) (⟨0, ![]⟩ : Shape) .f32 w) h' hu (ix1 p)
      = Finset.fold min (Ideal.ofBits .f32 w) (fun k : Fin b => x (ix2 p k)) Finset.univ := by
  rw [Host.reduce_eq_fold_single FloatOps.minimumf x _ h' h hu]
  have hf : (x ∘ h.lift (ix1 p)) = fun k : Fin b => x (ix2 p k) := funext fun k => congrArg x (lift_ix2 h p k)
  exact congrArg (fun f => Finset.fold min (Ideal.ofBits .f32 w) f (Finset.univ : Finset (Fin b))) hf

end Cert.Lib.RowMin

end
-- ==== Proof.LibChunkFolds.lean ====
/-
  Folding a long row chunk by chunk.

  A row of `N` entries is visited in chunks of `B` consecutive entries: chunk `n` holds the entries
  `B·n, …, B·n + B − 1`. A property that holds of every entry below `B·(n+1)` is one that holds of every entry
  below `B·n` and of every entry of chunk `n`; a sum over the entries below `B·(n+1)` is the sum over those
  below `B·n` plus the sum over chunk `n`. With the universal property of a minimum (a lower bound of a minimum
  is a lower bound of every entry) the first statement turns a running minimum over chunks into the minimum over
  the whole row; the second does the same for a running sum, in any commutative additive monoid.
-/
import Mathlib.Algebra.BigOperators.Intervals
import Mathlib.Algebra.BigOperators.Fin
import Mathlib.Order.Lattice
import Mathlib.Data.Finset.Fold

namespace Cert.Lib.ChunkFolds

/-- Entry `l` of chunk `n` is an entry of the row. -/
theorem chunk_lt {N B n : ℕ} (hN : B * (n + 1) ≤ N) (l : Fin B) : B * n + l.val < N := by
  have := l.isLt
  rw [Nat.mul_succ] at hN
  omega

/-- A property of every entry below `B·(n+1)`: of every entry below `B·n`, and of every entry of chunk `n`. -/
theorem forall_lt_chunk_succ {N B n : ℕ} (hN : B * (n + 1) ≤ N) (p : Fin N → Prop) :
    (∀ k : Fin N, k.val < B * (n + 1) → p k) ↔
      (∀ k : Fin N, k.val < B * n → p k) ∧ ∀ l : Fin B, p ⟨B * n + l.val, chunk_lt hN l⟩ := by
  constructor
  · intro h
    refine ⟨fun k hk => h k (by rw [Nat.mul_succ]; omega), fun l => h _ ?_⟩
    have := l.isLt
    show B * n + l.val < B * (n + 1)
    rw [Nat.mul_succ]; omega
  · rintro ⟨h1, h2⟩ k hk
    by_cases hlt : k.val < B * n
    · exact h1 k hlt
    · rw [Nat.mul_succ] at hk
      have hl : k.val - B * n < B := by omega
      have e : (⟨B * n + (⟨k.val - B * n, hl⟩ : Fin B).val, chunk_lt hN ⟨k.val - B * n, hl⟩⟩ : Fin N) = k :=
        Fin.ext (by show B * n + (k.val - B * n) = k.val; omega)
      exact e ▸ h2 ⟨k.val - B * n, hl⟩

/-- A lower bound of a running minimum after chunk `n`: of the minimum before it and of every entry of the chunk. -/
theorem le_min_fold_chunk {α : Type*} [LinearOrder α] {B : ℕ} (e acc top : α) (g : Fin B → α) :
    e ≤ min acc (Finset.fold min top g Finset.univ) ↔ e ≤ acc ∧ e ≤ top ∧ ∀ l : Fin B, e ≤ g l := by
  rw [le_min_iff, Finset.le_fold_min]
  exact and_congr Iff.rfl (and_congr Iff.rfl ⟨fun h l => h l (Finset.mem_univ l), fun h l _ => h l⟩)

/-- A sum over the entries below `B·(n+1)`: the sum over those below `B·n` plus the sum over chunk `n`. -/
theorem sum_range_chunk_succ {M : Type*} [AddCommMonoid M] (f : ℕ → M) (B n : ℕ) :
    ∑ k ∈ Finset.range (B * (n + 1)), f k
      = ∑ k ∈ Finset.range (B * n), f k + ∑ l : Fin B, f (B * n + l.val) := by
  rw [Nat.mul_succ, Finset.sum_range_add]
  exact congrArg (_ + ·) (Finset.sum_range fun x => f (B * n + x))

/-- A function on the row's entries continued by zero past the row's end, summed below the end, is the sum over the row. -/
theorem sum_range_dite {M : Type*} [AddCommMonoid M] {N : ℕ} (f : Fin N → M) :
    ∑ k ∈ Finset.range N, (if h : k < N then f ⟨k, h⟩ else 0) = ∑ k : Fin N, f k := by
  rw [Finset.sum_range]
  exact Finset.sum_congr rfl fun k _ => by rw [dif_pos k.isLt]

end Cert.Lib.ChunkFolds
-- ==== Proof.KernelRow.lean ====
/-
  The block one grid point stores, read at a row, on the extended reals.

  Row `r` of the stored 512 × 1 block depends on row `r` of the two staged 512 × 4096 blocks only. The first pass's
  running minimum over the four column chunks is bounded below by exactly the lower bounds of every masked entry of
  the row, so it is the row's threshold; the second pass's running sum over the chunks is the sum of the row's
  charges against that threshold; the stored entry is the row's loss scaled by the float 2⁻¹².
-/
import proofs.«152923_j24266565222505_2_alg».proof.Proof.KernelTrips
import proofs.«152923_j24266565222505_2_alg».proof.Proof.Spec
import proofs.«152923_j24266565222505_2_alg».proof.Proof.LibRowOps
import proofs.«152923_j24266565222505_2_alg».proof.Proof.LibRowMin
import proofs.«152923_j24266565222505_2_alg».proof.Proof.LibChunkFolds
import Idealize.ShloMosaic.Lib.ValueIdx

noncomputable section

namespace Cert.KernelIdeal.Body

open Idealize.ShloMosaic Idealize.ShloMosaic.TcCoe Idealize.SL.Sem Idealize.ShloMosaic.ValueIdx
open Cert.KernelIdeal Cert.KernelIdeal.Gen Cert.Spec Cert.Lib.ChunkFolds Cert.Lib.RowOps Cert.Lib.RowMin

theorem trips1 : k0_t1_loop.trips = 4 := by decide
theorem trips2 : k0_t2_loop.trips = 4 := by decide

/-- Entry (r, l) of the first pass's chunk `k` is entry (r, 1024·k + l) of the block. -/
theorem chunk1_apply {e : EltTy} (X : S512x4096.Idx → Elt Ideal e) (k : Fin k0_t1_loop.trips) (r : Fin 512) (l : Fin 1024) :
    chunk1 X k (ix2 r l)
      = X (ix2 r ⟨1024 * k.val + l.val, chunk_lt (N := 4096) (B := 1024) (n := k.val) (by have := k.isLt; have := trips1; omega) l⟩) := by
  unfold chunk1
  refine congrArg X (funext fun a => Fin.ext ?_)
  show k0_off1 k a + 1 * ((ix2 r l) a).val = _
  rw [k0_off1_eq k]
  match a with
  | ⟨0, _⟩ => show 0 + 1 * r.val = r.val; omega
  | ⟨1, _⟩ => show 1024 * k.val + 1 * l.val = 1024 * k.val + l.val; omega

/-- The same for the second pass. -/
theorem chunk2_apply {e : EltTy} (X : S512x4096.Idx → Elt Ideal e) (k : Fin k0_t2_loop.trips) (r : Fin 512) (l : Fin 1024) :
    chunk2 X k (ix2 r l)
      = X (ix2 r ⟨1024 * k.val + l.val, chunk_lt (N := 4096) (B := 1024) (n := k.val) (by have := k.isLt; have := trips2; omega) l⟩) := by
  unfold chunk2
  refine congrArg X (funext fun a => Fin.ext ?_)
  show k0_off2 k a + 1 * ((ix2 r l) a).val = _
  rw [k0_off2_eq k]
  match a with
  | ⟨0, _⟩ => show 0 + 1 * r.val = r.val; omega
  | ⟨1, _⟩ => show 1024 * k.val + 1 * l.val = 1024 * k.val + l.val; omega

/-- One trip of the first pass at row `r`: the carried entry against the minimum of the chunk's masked entries. -/
theorem pay2_apply (acc : FVec Ideal S512x1 .f32) (v12 : Vec Ideal S512x1024 .f32) (v14 : Vec Ideal S512x1024 .i32) (r : Fin 512) (u : Fin 1) :
    k0_pay2 (F := Ideal) acc v12 v14 (ix2 r u)
      = min (acc (ix2 r u)) (Finset.fold min INF
          (fun l : Fin 1024 => Scalar.select (IntOp.cmpi .eq (v14 (ix2 r l)) 1#32) (v12 (ix2 r l)) INF) Finset.univ) := by
  unfold k0_pay2
  refine congrArg (min (acc (ix2 r u))) ?_
  refine (shapeCast_a_a1_apply _ _ r u).trans ?_
  exact multiReduction_min_lanes _ _ _ _ _ r

/-- One trip of the second pass at row `r`: the carried entry plus the chunk's charges against the threshold `v2 (r, 0)`. -/
theorem pay4_apply (v2 acc : FVec Ideal S512x1 .f32) (v12 : Vec Ideal S512x1024 .f32) (v14 : Vec Ideal S512x1024 .i32) (r : Fin 512) (u : Fin 1) :
    k0_pay4 (F := Ideal) v2 acc v12 v14 (ix2 r u)
      = acc (ix2 r u) + ∑ l : Fin 1024,
          Scalar.select (IntOp.cmpi .eq (v14 (ix2 r l)) 1#32) ZERO (max (v12 (ix2 r l) - v2 (ix2 r (0 : Fin 1))) ZERO) := by
  unfold k0_pay4
  refine congrArg (acc (ix2 r u) + ·) ?_
  refine (shapeCast_a_a1_apply _ _ r u).trans ?_
  refine (multiReduction_add_lanes _ _ _ _ _ r).trans ?_
  refine Finset.sum_congr rfl fun l _ => ?_
  exact congrArg (fun t => Scalar.select (IntOp.cmpi .eq (v14 (ix2 r l)) 1#32) ZERO (max (v12 (ix2 r l) - t) ZERO))
    (broadcastTo_a1_ab_apply v2 _ r l)

variable (X0 : Vec Ideal S512x4096 .f32) (X1 : Vec Ideal S512x4096 .i32)

/-- After `n` trips the first pass's entry of row `r` has exactly the lower bounds of +∞ and of the row's masked entries
    in the first `n` chunks. -/
theorem le_minCol (n : ℕ) (hn : n ≤ 4) (r : Fin 512) (u : Fin 1) (e : EReal) :
    e ≤ minCol X0 X1 n (ix2 r u)
      ↔ e ≤ INF ∧ ∀ k : Fin 4096, k.val < 1024 * n → e ≤ masked (rowOf X0 r) (bitsOf X1 r) k := by
  induction n with
  | zero =>
    show e ≤ INF ↔ _
    exact ⟨fun h => ⟨h, fun k hk => absurd hk (by omega)⟩, fun h => h.1⟩
  | succ n ih =>
    have hn' : n < k0_t1_loop.trips := by rw [trips1]; omega
    rw [minCol, dif_pos hn', pay2_apply, le_min_fold_chunk, ih (by omega),
      forall_lt_chunk_succ (N := 4096) (B := 1024) (n := n) (by omega)]
    constructor
    · rintro ⟨⟨h0, h1⟩, _, h2⟩
      refine ⟨h0, h1, fun l => ?_⟩
      have h3 := h2 l
      rw [chunk1_apply, chunk1_apply] at h3
      exact h3
    · rintro ⟨h0, h1, h2⟩
      refine ⟨⟨h0, h1⟩, h0, fun l => ?_⟩
      rw [chunk1_apply, chunk1_apply]
      exact h2 l

/-- So after its last trip it is the row's threshold. -/
theorem minCol_last (r : Fin 512) (u : Fin 1) :
    minCol X0 X1 4 (ix2 r u) = rowMin (rowOf X0 r) (bitsOf X1 r) := by
  refine eq_of_forall_le_iff fun e => ?_
  rw [le_minCol X0 X1 4 le_rfl r u e]
  unfold rowMin
  rw [Finset.le_fold_min]
  exact and_congr Iff.rfl ⟨fun h k _ => h k (by have := k.isLt; omega), fun h k _ => h k (Finset.mem_univ k)⟩

/-- Row `r`'s charges against a threshold `t`, continued by zero past the row's end. -/
def chargeN (t : EReal) (r : Fin 512) : ℕ → EReal :=
  fun k => if h : k < 4096 then charge t (rowOf X0 r) (bitsOf X1 r) ⟨k, h⟩ else 0

/-- After `n` trips the second pass's entry of row `r` is the sum of the row's charges in the first `n` chunks. -/
theorem sumCol_apply (v2 : FVec Ideal S512x1 .f32) (n : ℕ) (hn : n ≤ 4) (r : Fin 512) (u : Fin 1) :
    sumCol v2 X0 X1 n (ix2 r u) = ZERO + ∑ k ∈ Finset.range (1024 * n), chargeN X0 X1 (v2 (ix2 r (0 : Fin 1))) r k := by
  induction n with
  | zero =>
    rw [Nat.mul_zero, Finset.range_zero, Finset.sum_empty, add_zero]
    rfl
  | succ n ih =>
    have hn' : n < k0_t2_loop.trips := by rw [trips2]; omega
    rw [sumCol, dif_pos hn', pay4_apply, ih (by omega), sum_range_chunk_succ, add_assoc]
    refine congrArg (ZERO + ·) (congrArg (_ + ·) (Finset.sum_congr rfl fun l _ => ?_))
    rw [chunk2_apply, chunk2_apply]
    unfold chargeN
    rw [dif_pos (chunk_lt (N := 4096) (B := 1024) (n := n) (by omega) l)]
    rfl

/-- The stored block at row `r`: the row's loss, scaled. -/
theorem blockOut_apply (r : Fin 512) (u : Fin 1) :
    blockOut X0 X1 (ix2 r u) = lossOf X0 X1 r * Ideal.ofBits .f32 0x39800000#32 := by
  unfold blockOut k0_pay5
  refine congrArg (· * Ideal.ofBits .f32 0x39800000#32) ?_
  rw [trips2, sumCol_apply X0 X1 _ 4 le_rfl r u, minCol_last X0 X1 r 0]
  unfold lossOf rowLoss
  refine congrArg (ZERO + ·) ?_
  exact sum_range_dite (N := 4096) (charge (rowMin (rowOf X0 r) (bitsOf X1 r)) (rowOf X0 r) (bitsOf X1 r))

end Cert.KernelIdeal.Body

end
-- ==== Proof.KernelArray.lean ====
/-
  From the blocks the grid points store to the whole per-row array.

  Grid point `t` reads rows 512·t … 512·t + 511 of the two argument matrices (all 4096 columns) and writes the same
  rows of the 8192 × 1 result. Since a stored row depends only on the matching rows of the staged blocks, what point
  `t` writes back is the restriction to its rows of ONE function of the argument matrices — row `p` of the result is
  the loss of row `p`, scaled by the float 2⁻¹² (`perRow`). The sixteen blocks cover the result, so after the region
  the result array is that function.
-/
import proofs.«152923_j24266565222505_2_alg».proof.Proof.KernelRow
import Idealize.ShloMosaic.Lib.Pipeline.Value

noncomputable section

namespace Cert.KernelIdeal.Body

open Idealize.ShloMosaic Idealize.ShloMosaic.TcCoe Idealize.SL.Sem Idealize.ShloMosaic.ValueIdx
open Cert.KernelIdeal Cert.KernelIdeal.Gen Cert.Spec
open Idealize.ShloMosaic.Pipeline (Dat)

/-- The per-row array the region computes, as one function of the two argument matrices. -/
def perRow (x : S8192x4096.Idx → EReal) (y : S8192x4096.Idx → BitVec 32) : S8192x1.Idx → EReal :=
  fun i => lossOf x y (i 0) * Ideal.ofBits .f32 0x39800000#32

variable (m : (ℓ : Loc nD τ sig) → Buf (Elt Ideal) ℓ) (ρ : Dev nD → PrngReg)

/-- The printed index maps, decided over the sixteen grid points: both inputs' blocks sit at the output's block row
    and at column block zero, and the output's block row is the point's number. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- Entry (r, k) of an input's block at point `t` is the argument's entry on the output block's row `r`, column `k`. -/
theorem emb0 (t : Fin cfg0.N) (r : Fin 512) (u : Fin 1) (k : Fin 4096) :
    ((cfg0.win 0).blk t).view.emb (ix2 r k) = ix2 ((((cfg0.win 2).blk t).view.emb (ix2 r u)) 0) k := by
  obtain ⟨e0, e1, e2, e3, e4, e5⟩ := idx_facts t
  funext a; apply Fin.ext
  match a with
  | ⟨0, _⟩ => show win0_0.index t (0 : Fin 2) * 512 + 1 * r.val = win0_2.index t (0 : Fin 2) * 512 + 1 * r.val; omega
  | ⟨1, _⟩ => show win0_0.index t (1 : Fin 2) * 4096 + 1 * k.val = k.val; omega

theorem emb1 (t : Fin cfg0.N) (r : Fin 512) (u : Fin 1) (k : Fin 4096) :
    ((cfg0.win 1).blk t).view.emb (ix2 r k) = ix2 ((((cfg0.win 2).blk t).view.emb (ix2 r u)) 0) k := by
  obtain ⟨e0, e1, e2, e3, e4, e5⟩ := idx_facts t
  funext a; apply Fin.ext
  match a with
  | ⟨0, _⟩ => show win0_1.index t (0 : Fin 2) * 512 + 1 * r.val = win0_2.index t (0 : Fin 2) * 512 + 1 * r.val; omega
  | ⟨1, _⟩ => show win0_1.index t (1 : Fin 2) * 4096 + 1 * k.val = k.val; omega

/-- What point `t` writes back is block `t` of `perRow` of the argument matrices as the region finds them. -/
theorem flushed_eq (c : Dev nD) (t : Fin cfg0.N) :
    (dats m 0 c).flushed 2 t = ((cfg0.win 2).blk t).view.read (Elt Ideal) (perRow (V m c main_arg0) (V m c main_arg1)) := by
  show (cfg0.win 2).cut (grid0.coords t) ((dats m 0 c).after 2 t) = _
  rw [after0_2]
  unfold outsAt0
  rw [out_eq]
  funext j
  obtain ⟨r, u, rfl⟩ : ∃ (r : Fin 512) (u : Fin 1), j = ix2 r u := ⟨j 0, j 1, eq_ix2 j⟩
  show blockOut (iblk m c 0 t) (iblk m c 1 t) (ix2 r u) = perRow (V m c main_arg0) (V m c main_arg1) (((cfg0.win 2).blk t).view.emb (ix2 r u))
  refine (blockOut_apply _ _ r u).trans ?_
  unfold perRow lossOf
  refine congrArg (· * Ideal.ofBits .f32 0x39800000#32) ?_
  have hx : rowOf (iblk m c 0 t) r = rowOf (V m c main_arg0) ((((cfg0.win 2).blk t).view.emb (ix2 r u)) 0) := funext fun k => by
    show V m c main_arg0 (((cfg0.win 0).blk t).view.emb (ix2 r k)) = V m c main_arg0 (ix2 _ k)
    exact congrArg (V m c main_arg0) (emb0 t r u k)
  have hy : bitsOf (iblk m c 1 t) r = bitsOf (V m c main_arg1) ((((cfg0.win 2).blk t).view.emb (ix2 r u)) 0) := funext fun k => by
    show IntOp.cmpi .eq (V m c main_arg1 (((cfg0.win 1).blk t).view.emb (ix2 r k))) 1#32 = IntOp.cmpi .eq (V m c main_arg1 (ix2 _ k)) 1#32
    exact congrArg (fun v => IntOp.cmpi .eq v 1#32) (congrArg (V m c main_arg1) (emb1 t r u k))
  rw [hx, hy]

/-- An index of the result is in point `t`'s block iff each coordinate is in the block's range on its axis. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- Every row of the result is in some point's block: row `p` in point `p / 512`'s. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 16 := N_0
  let t : Fin cfg0.N := ⟨(i 0).val / 512, by rw [hN]; omega⟩
  obtain ⟨e0, e1, e2, e3, e4, e5⟩ := idx_facts t
  have e5' : win0_2.index t (0 : Fin 2) = (i 0).val / 512 := e5
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- After the region the result array is `perRow` of the argument matrices. -/
theorem final (c : Dev nD) :
    (dats m 0 c).arrAt 2 cfg0.N = perRow (m ((c : Thread nD τ).loc main_arg0)) (m ((c : Thread nD τ).loc main_arg1)) :=
  (dats m 0 c).arrAt_eq_of_cover 2 (perRow (V m c main_arg0) (V m c main_arg1)) (fun t _ => flushed_eq m c t) cover

end Cert.KernelIdeal.Body

end
-- ==== Proof.KernelTail.lean ====
/-
  The kernel program's result: the host lines after the region, applied to the per-row array.

  After the region the program sums the 8192 × 1 per-row array over both axes from the float zero and divides by
  the float 8192. With the per-row array known (row `p` is the loss of row `p` scaled by the float 2⁻¹²) the scalar
  result is `kernelMean` of the two argument matrices; and since scaling by 2⁻¹² is dividing by 4096 at every
  extended real, that is the mean of the row losses as the reference spells it.
-/
import proofs.«152923_j24266565222505_2_alg».proof.Proof.KernelArray
import Idealize.ShloMosaic.Lib.StableHlo.Run
import Idealize.ShloMosaic.PureOps.Ideal.Laws

noncomputable section

namespace Cert.KernelIdeal.Body

open Idealize.ShloMosaic Idealize.ShloMosaic.TcCoe Idealize.SL.Sem Idealize.ShloMosaic.ValueIdx
open Cert.KernelIdeal Cert.KernelIdeal.Gen Cert.Spec
open Idealize.ShloMosaic.Pipeline (Dat)

/-- The kernel program's scalar: the scaled row losses summed from the float zero, over the float 8192. -/
def kernelMean (x : S8192x4096.Idx → EReal) (y : S8192x4096.Idx → BitVec 32) : EReal :=
  Ideal.div (ZERO + ∑ p : Fin 8192, lossOf x y p * Ideal.ofBits .f32 0x39800000#32) (Ideal.ofBits .f32 0x46000000#32)

/-- The host's sum of an 8192 × 1 array over both axes, from the float zero: zero plus the sum of its rows' entries. -/
theorem hostSum_apply (G : S8192x1.Idx → EReal) (i : S_.Idx) :
    Host.reduceAdd (F := Ideal) G (constant S_ .f32 0x00000000#32) reducesTo_S8192x1_S_d0_1 h_S_ i
      = ZERO + ∑ p : Fin 8192, G (ix2 p (0 : Fin 1)) := by
  simp only [Host.reduceAdd, Ideal.hostReduceAdd_def]
  refine (Ideal.hostReduceAdd_total reducesTo_S8192x1_S_d0_1 (fun b => b.elim0) G _ i).trans ?_
  rw [sum_idx2]
  exact congrArg₂ (· + ·) rfl (Finset.sum_congr rfl fun p _ => Fin.sum_univ_one _)

variable (m : (ℓ : Loc nD τ sig) → Buf (Elt Ideal) ℓ) (ρ : Dev nD → PrngReg)

/-- What the lines after the region leave in the result buffer. -/
theorem tail_eq (c : Dev nD) :
    Pipeline.afterTail₀ cfgs (dats m) 0 (V0 m) [hostOps1] c main_v2
      = fun _ => kernelMean (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = perRow (m ((c : Thread nD τ).loc main_arg0)) (m ((c : Thread nD τ).loc main_arg1)) :=
    (Pipeline.withArrays_arr spec0 launch0.win.arr_inj c _ _ 2).trans (final m c)
  rw [e]
  funext i
  show Ideal.div (Host.reduceAdd (F := Ideal) (perRow (m ((c : Thread nD τ).loc main_arg0)) (m ((c : Thread nD τ).loc main_arg1)))
    (constant S_ .f32 0x00000000#32) reducesTo_S8192x1_S_d0_1 h_S_ i) (Ideal.ofBits .f32 0x46000000#32) = _
  rw [hostSum_apply]
  rfl

/-- The kernel program's run, read: the result buffer at `kernelMean` of the arguments, the arguments unchanged. -/
theorem run : θ_run defs (onTc (τ := τ) (main (F := Ideal))) ⟨m, fun _ => 0, ρ⟩ fun r => ∀ c : Dev nD,
      r.2.mem ((c : Thread nD τ).loc main_v2) = (fun _ => kernelMean (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.LibSumIdx.lean ====
/-
  A sum over a rank-3 index set is the triple sum over its coordinates, and a sum over a rank-1 index set the sum over
  its coordinate: the index set is the product of the coordinate ranges. Valid in any commutative additive monoid.
-/
import Idealize.ShloMosaic.Lib.ValueIdx

namespace Cert.Lib.SumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

end Cert.Lib.SumIdx
-- ==== Proof.RefValue.lean ====
/-
  The reference's result, read stage by stage, on the extended reals.

  The reference masks the scores by the relevance bits, takes each row's minimum, subtracts it from the row,
  rectifies, zeroes the relevant entries, sums each row, divides the row sums by the float 4096, sums them and
  divides by the float 8192. Read at an index each stage is the corresponding piece of the row loss: the row
  minimum is the row's threshold, the row sum its loss, and the scalar result the mean of the row losses.
-/
import proofs.«152923_j24266565222505_2_alg».proof.Defs
import proofs.«152923_j24266565222505_2_alg».proof.Proof.Gen.ReferenceIdeal.Run
import proofs.«152923_j24266565222505_2_alg».proof.Proof.Gen.ReferenceIdeal.Read
import proofs.«152923_j24266565222505_2_alg».proof.Proof.Spec
import proofs.«152923_j24266565222505_2_alg».proof.Proof.LibRowMin
import proofs.«152923_j24266565222505_2_alg».proof.Proof.LibSumIdx
import Idealize.ShloMosaic.Lib.ValueIdx
import Idealize.ShloMosaic.PureOps.Ideal.Laws

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read Cert.Spec Cert.Lib.RowMin Cert.Lib.SumIdx

variable (x0 : (⟨S8192x4096, .f32⟩ : BufTy).Contents (Elt Ideal)) (x1 : (⟨S8192x4096, .i32⟩ : BufTy).Contents (Elt Ideal))

/-- The mean of the row losses, as both programs end: each row's loss over the float 4096, summed from the float
    zero, over the float 8192. -/
def meanLoss (x : S8192x4096.Idx → EReal) (y : S8192x4096.Idx → BitVec 32) : EReal :=
  Ideal.div (ZERO + ∑ p : Fin 8192, Ideal.div (lossOf x y p) (Ideal.ofBits .f32 0x45800000#32)) (Ideal.ofBits .f32 0x46000000#32)

/-- The relevance bit of an entry: its label compared with one. -/
theorem mask_apply (i : S8192x4096.Idx) : val_main_v1 (F := Ideal) x1 i = IntOp.cmpi .eq (x1 i) 1#32 := by
  rw [val_main_v1_apply, val_main_v0_apply, val_main_c_apply]

/-- The masking value is the float +∞ at every entry. -/
theorem inf_apply (i : S8192x4096.Idx) : val_main_call0_v1 (F := Ideal) i = INF := by
  rw [val_main_call0_v1_apply, val_main_call0_v0_apply, val_main_cst_apply]; rfl

/-- The value a relevant entry is charged is the float zero at every entry. -/
theorem zero_apply (i : S8192x4096.Idx) : val_main_call1_v1 (F := Ideal) i = ZERO := by
  rw [val_main_call1_v1_apply, val_main_call1_v0_apply, val_main_cst_2_apply]; rfl

/-- The rectifier's floor is the float zero at every entry. -/
theorem floor_apply (i : S8192x4096.Idx) : val_main_v7 (F := Ideal) i = ZERO := by
  rw [val_main_v7_apply, val_main_cst_1_apply]; rfl

/-- The row minimum at row `p` is the row's threshold. -/
theorem threshold_apply (p : Fin 8192) : val_main_v3 (F := Ideal) x0 x1 (ix1 p) = rowMin (rowOf x0 p) (bitsOf x1 p) := by
  show Host.reduce FloatOps.minimumf (val_main_v2 (F := Ideal) x0 x1) (constant (F := Ideal) S_ .f32 0x7F800000#32)
    reducesTo_S8192x4096_S8192_d1 h_S_ (ix1 p) = _
  refine (hostReduce_min_lanes _ _ _ (by decide) _ p).trans ?_
  unfold rowMin
  refine congrArg (fun f => Finset.fold min INF f (Finset.univ : Finset (Fin 4096))) (funext fun k => ?_)
  rw [val_main_v2_apply, mask_apply, inf_apply]
  rfl

/-- The zeroed, rectified difference at (p, k) is the entry's charge against its row's threshold. -/
theorem charge_apply (p : Fin 8192) (k : Fin 4096) :
    val_main_v9 (F := Ideal) x0 x1 (ix2 p k) = charge (rowMin (rowOf x0 p) (bitsOf x1 p)) (rowOf x0 p) (bitsOf x1 p) k := by
  have e : idx_main_v4 (idx_main_v5 (ix2 p k)) = ix1 p := funext fun a => Fin.ext (by match a with | ⟨0, _⟩ => rfl)
  rw [val_main_v9_apply, mask_apply, zero_apply, val_main_v8_apply, floor_apply, val_main_v6_apply, val_main_v5_apply,
    val_main_v4_apply, e, threshold_apply]
  rfl

/-- The row sum at row `p` is the row's loss. -/
theorem loss_apply (p : Fin 8192) : val_main_v10 (F := Ideal) x0 x1 (ix1 p) = lossOf x0 x1 p := by
  rw [val_main_v10_apply]
  unfold lossOf rowLoss
  refine congrArg₂ (· + ·) rfl (Finset.sum_congr rfl fun k _ => ?_)
  have e : idx_main_v10 (ix1 p) k = ix2 p k := funext fun a => Fin.ext (by match a with | ⟨0, _⟩ => rfl | ⟨1, _⟩ => rfl)
  rw [e, charge_apply]

/-- The reference's result is the mean of the row losses. -/
theorem result_apply (i : S_.Idx) : val_main_v14 (F := Ideal) x0 x1 i = meanLoss x0 x1 := by
  rw [val_main_v14_apply, val_main_v13_apply, sum_idx1]
  unfold meanLoss
  refine congrArg₂ Ideal.div (congrArg₂ (· + ·) rfl (Finset.sum_congr rfl fun p _ => ?_)) rfl
  rw [val_main_v12_apply, loss_apply, val_main_v11_apply, val_main_cst_4_apply]
  rfl

end Cert.RefValue

end
-- ==== Proof.lean ====
/-
  A ranking hinge loss, kernel against reference, on the extended reals.

  For scores `pred` and labels `y` (both 8192 × 4096) each row has a threshold, the smallest score among the entries
  labelled one (+∞ when there is none); every other entry of the row is charged `max (pred − threshold) 0`; the row's
  loss is the total charge, and the result is the mean over the rows of the row losses over 4096.

  The kernel visits the rows 512 at a time and each row's columns 1024 at a time, twice: once for a running minimum,
  once for a running sum against that minimum. A running minimum over chunks has the lower bounds of the whole row's
  minimum, and a running sum over chunks is the whole row's sum (commutativity and associativity of the extended
  reals' addition only), so each grid point stores the losses of its rows; the kernel scales them by the float 2⁻¹²
  where the reference divides by the float 4096, which is the same map at every extended real, finite or not. Nothing
  here needs the inputs to be finite.

  The three frames are the generated ones (the reference's is its generated run with the result dropped); the ideal
  pass rewrote nothing, so `preserves` is trivial.
-/
import proofs.«152923_j24266565222505_2_alg».proof.Defs
import proofs.«152923_j24266565222505_2_alg».proof.Proof.Gen.Kernel
import proofs.«152923_j24266565222505_2_alg».proof.Proof.Gen.Kernel.Frame
import proofs.«152923_j24266565222505_2_alg».proof.Proof.Gen.KernelIdeal
import proofs.«152923_j24266565222505_2_alg».proof.Proof.Gen.KernelIdeal.Frame
import proofs.«152923_j24266565222505_2_alg».proof.Proof.Gen.ReferenceIdeal
import proofs.«152923_j24266565222505_2_alg».proof.Proof.Gen.ReferenceIdeal.Run
import proofs.«152923_j24266565222505_2_alg».proof.Proof.Gen.ReferenceIdeal.Read
import proofs.«152923_j24266565222505_2_alg».proof.Proof.Gen.Pre_finite_inputs
import proofs.«152923_j24266565222505_2_alg».proof.Proof.KernelTail
import proofs.«152923_j24266565222505_2_alg».proof.Proof.RefValue
import Idealize.ShloMosaic.Adequacy
import Idealize.ShloMosaic.Init

noncomputable section

namespace Cert.Proof

open Idealize.ShloMosaic Idealize.ShloMosaic.TcCoe Idealize.SL.Sem Cert.Spec

/-- The kernel's scalar is the reference's: each row's loss scaled by 2⁻¹² is that loss over 4096. -/
theorem kernelMean_eq (x : Cert.KernelIdeal.S8192x4096.Idx → EReal) (y : Cert.KernelIdeal.S8192x4096.Idx → BitVec 32) :
    Cert.KernelIdeal.Body.kernelMean x y = Cert.RefValue.meanLoss x y := by
  unfold Cert.KernelIdeal.Body.kernelMean Cert.RefValue.meanLoss
  refine congrArg₂ Ideal.div (congrArg₂ (· + ·) rfl (Finset.sum_congr rfl fun p _ => ?_)) rfl
  exact scale_eq_div _

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the mean of the row losses of the arguments they agree on. -/
theorem algebraic : Cert.algebraic_KernelIdeal_ReferenceIdeal := by
  intro m ρ m' ρ' _ hagree
  refine ⟨fun c _ => Cert.RefValue.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Body.run m ρ)
    funext _
    exact kernelMean_eq _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2]
    funext i
    exact Cert.RefValue.result_apply _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
